-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x256x256 : Shape := ⟨4, ![16, 3, 256, 256]⟩
abbrev S_ : Shape := ⟨0, ![]⟩

class Facts : Prop where
  bcast_S_S16x3x256x256 : S_.BroadcastsInDim S16x3x256x256 (![] : Fin 0 → Fin S16x3x256x256.rank)
  reducesTo_S16x3x256x256_S_d0_1_2_3 : S16x3x256x256.ReducesTo [0, 1, 2, 3] S_
  h_S_ : 0 < S_.numel

variable [Facts]

def fn {F : FTy → Type} [FloatOps F] (main_arg0 : FVec F S16x3x256x256 .f32) (main_arg1 : FVec F S16x3x256x256 .f32) : IVec S_ 1 :=
  let main_v0 : FVec F S16x3x256x256 .f32 := Host.absf main_arg0
  let main_cst : FVec F S_ .f32 := constant S_ .f32 0x7F800000#32
  let main_v1 : FVec F S16x3x256x256 .f32 := broadcastInDim S16x3x256x256 ![] bcast_S_S16x3x256x256 main_cst
  let main_v2 : IVec S16x3x256x256 1 := cmpf .olt main_v0 main_v1
  let main_c : IVec S_ 1 := constantI S_ 1 1#1
  let main_v3 : IVec S_ 1 := (fun x v => Host.reduce IntOp.andi x v reducesTo_S16x3x256x256_S_d0_1_2_3 h_S_) main_v2 main_c
  let main_v4 : FVec F S16x3x256x256 .f32 := Host.absf main_arg1
  let main_cst_0 : FVec F S_ .f32 := constant S_ .f32 0x7F800000#32
  let main_v5 : FVec F S16x3x256x256 .f32 := broadcastInDim S16x3x256x256 ![] bcast_S_S16x3x256x256 main_cst_0
  let main_v6 : IVec S16x3x256x256 1 := cmpf .olt main_v4 main_v5
  let main_c_1 : IVec S_ 1 := constantI S_ 1 1#1
  let main_v7 : IVec S_ 1 := (fun x v => Host.reduce IntOp.andi x v reducesTo_S16x3x256x256_S_d0_1_2_3 h_S_) main_v6 main_c_1
  let main_v8 : IVec S_ 1 := andi main_v3 main_v7
  main_v8
-- ==== Kernel.lean ====
abbrev S16x3x256x256 : Shape := ⟨4, ![16, 3, 256, 256]⟩
abbrev S_ : Shape := ⟨0, ![]⟩
abbrev S16x3x260x260 : Shape := ⟨4, ![16, 3, 260, 260]⟩
abbrev S16x256x256 : Shape := ⟨3, ![16, 256, 256]⟩
abbrev S4x3x260x260 : Shape := ⟨4, ![4, 3, 260, 260]⟩
abbrev S4x3x256x256 : Shape := ⟨4, ![4, 3, 256, 256]⟩
abbrev S4x256x256 : Shape := ⟨3, ![4, 256, 256]⟩

abbrev nBuf : Space → Nat
  | .hbm => 8
  | .vmem => 6
  | .smem => 0
  | _ => 0

abbrev bufTy : (tb : Table) → Fin (tcTables nBuf tb) → BufTy
  | .hbm, ⟨0, _⟩ => ⟨S16x3x256x256, .f32⟩
  | .hbm, ⟨1, _⟩ => ⟨S16x3x256x256, .f32⟩
  | .hbm, ⟨2, _⟩ => ⟨S_, .f32⟩
  | .hbm, ⟨3, _⟩ => ⟨S_, .f32⟩
  | .hbm, ⟨4, _⟩ => ⟨S16x3x260x260, .f32⟩
  | .hbm, ⟨5, _⟩ => ⟨S16x256x256, .f32⟩
  | .hbm, ⟨6, _⟩ => ⟨S_, .f32⟩
  | .hbm, ⟨7, _⟩ => ⟨S_, .f32⟩
  | .local _ .vmem, ⟨0, _⟩ => ⟨S4x3x260x260, .f32⟩
  | .local _ .vmem, ⟨1, _⟩ => ⟨S4x3x260x260, .f32⟩
  | .local _ .vmem, ⟨2, _⟩ => ⟨S4x3x256x256, .f32⟩
  | .local _ .vmem, ⟨3, _⟩ => ⟨S4x3x256x256, .f32⟩
  | .local _ .vmem, ⟨4, _⟩ => ⟨S4x256x256, .f32⟩
  | .local _ .vmem, ⟨5, _⟩ => ⟨S4x256x256, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x260x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x3x256x256_S16x3x260x260_000_000_220_220 : S16x3x256x256.Pads (![0, 0, 2, 2] : Fin 4 → Nat) ![0, 0, 2, 2] ![0, 0, 0, 0] S16x3x260x260
  h_S_ : 0 < S_.numel
  inb_S4x3x256x256_S4x3x256x256_0_0_0_0 : ∀ a, (![0, 0, 0, 0] : Fin 4 → Nat) a + S4x3x256x256.size a ≤ S4x3x256x256.size a
  h_S4x3x256x256 : 0 < S4x3x256x256.numel
  inb_S4x3x260x260_S4x3x256x256_0_0_0_0 : ∀ a, (![0, 0, 0, 0] : Fin 4 → Nat) a + S4x3x256x256.size a ≤ S4x3x260x260.size a
  shapeCasts_S4x3x256x256_S4x3x256x256 : S4x3x256x256.ShapeCasts S4x3x256x256
  reduces_S4x3x256x256_S4x256x256 : S4x3x256x256.Reduces [1] S4x256x256
  inb_S4x3x260x260_S4x3x256x256_0_0_0_1 : ∀ a, (![0, 0, 0, 1] : Fin 4 → Nat) a + S4x3x256x256.size a ≤ S4x3x260x260.size a
  inb_S4x3x260x260_S4x3x256x256_0_0_0_2 : ∀ a, (![0, 0, 0, 2] : Fin 4 → Nat) a + S4x3x256x256.size a ≤ S4x3x260x260.size a
  inb_S4x3x260x260_S4x3x256x256_0_0_0_3 : ∀ a, (![0, 0, 0, 3] : Fin 4 → Nat) a + S4x3x256x256.size a ≤ S4x3x260x260.size a
  inb_S4x3x260x260_S4x3x256x256_0_0_0_4 : ∀ a, (![0, 0, 0, 4] : Fin 4 → Nat) a + S4x3x256x256.size a ≤ S4x3x260x260.size a
  inb_S4x3x260x260_S4x3x256x256_0_0_1_0 : ∀ a, (![0, 0, 1, 0] : Fin 4 → Nat) a + S4x3x256x256.size a ≤ S4x3x260x260.size a
  inb_S4x3x260x260_S4x3x256x256_0_0_1_1 : ∀ a, (![0, 0, 1, 1] : Fin 4 → Nat) a + S4x3x256x256.size a ≤ S4x3x260x260.size a
  inb_S4x3x260x260_S4x3x256x256_0_0_1_2 : ∀ a, (![0, 0, 1, 2] : Fin 4 → Nat) a + S4x3x256x256.size a ≤ S4x3x260x260.size a
  inb_S4x3x260x260_S4x3x256x256_0_0_1_3 : ∀ a, (![0, 0, 1, 3] : Fin 4 → Nat) a + S4x3x256x256.size a ≤ S4x3x260x260.size a
  inb_S4x3x260x260_S4x3x256x256_0_0_1_4 : ∀ a, (![0, 0, 1, 4] : Fin 4 → Nat) a + S4x3x256x256.size a ≤ S4x3x260x260.size a
  inb_S4x3x260x260_S4x3x256x256_0_0_2_0 : ∀ a, (![0, 0, 2, 0] : Fin 4 → Nat) a + S4x3x256x256.size a ≤ S4x3x260x260.size a
  inb_S4x3x260x260_S4x3x256x256_0_0_2_1 : ∀ a, (![0, 0, 2, 1] : Fin 4 → Nat) a + S4x3x256x256.size a ≤ S4x3x260x260.size a
  inb_S4x3x260x260_S4x3x256x256_0_0_2_2 : ∀ a, (![0, 0, 2, 2] : Fin 4 → Nat) a + S4x3x256x256.size a ≤ S4x3x260x260.size a
  inb_S4x3x260x260_S4x3x256x256_0_0_2_3 : ∀ a, (![0, 0, 2, 3] : Fin 4 → Nat) a + S4x3x256x256.size a ≤ S4x3x260x260.size a
  inb_S4x3x260x260_S4x3x256x256_0_0_2_4 : ∀ a, (![0, 0, 2, 4] : Fin 4 → Nat) a + S4x3x256x256.size a ≤ S4x3x260x260.size a
  inb_S4x3x260x260_S4x3x256x256_0_0_3_0 : ∀ a, (![0, 0, 3, 0] : Fin 4 → Nat) a + S4x3x256x256.size a ≤ S4x3x260x260.size a
  inb_S4x3x260x260_S4x3x256x256_0_0_3_1 : ∀ a, (![0, 0, 3, 1] : Fin 4 → Nat) a + S4x3x256x256.size a ≤ S4x3x260x260.size a
  inb_S4x3x260x260_S4x3x256x256_0_0_3_2 : ∀ a, (![0, 0, 3, 2] : Fin 4 → Nat) a + S4x3x256x256.size a ≤ S4x3x260x260.size a
  inb_S4x3x260x260_S4x3x256x256_0_0_3_3 : ∀ a, (![0, 0, 3, 3] : Fin 4 → Nat) a + S4x3x256x256.size a ≤ S4x3x260x260.size a
  inb_S4x3x260x260_S4x3x256x256_0_0_3_4 : ∀ a, (![0, 0, 3, 4] : Fin 4 → Nat) a + S4x3x256x256.size a ≤ S4x3x260x260.size a
  inb_S4x3x260x260_S4x3x256x256_0_0_4_0 : ∀ a, (![0, 0, 4, 0] : Fin 4 → Nat) a + S4x3x256x256.size a ≤ S4x3x260x260.size a
  inb_S4x3x260x260_S4x3x256x256_0_0_4_1 : ∀ a, (![0, 0, 4, 1] : Fin 4 → Nat) a + S4x3x256x256.size a ≤ S4x3x260x260.size a
  inb_S4x3x260x260_S4x3x256x256_0_0_4_2 : ∀ a, (![0, 0, 4, 2] : Fin 4 → Nat) a + S4x3x256x256.size a ≤ S4x3x260x260.size a
  inb_S4x3x260x260_S4x3x256x256_0_0_4_3 : ∀ a, (![0, 0, 4, 3] : Fin 4 → Nat) a + S4x3x256x256.size a ≤ S4x3x260x260.size a
  inb_S4x3x260x260_S4x3x256x256_0_0_4_4 : ∀ a, (![0, 0, 4, 4] : Fin 4 → Nat) a + S4x3x256x256.size a ≤ S4x3x260x260.size a
  inb_S4x256x256_S4x256x256_0_0_0 : ∀ a, (![0, 0, 0] : Fin 3 → Nat) a + S4x256x256.size a ≤ S4x256x256.size a
  h_S4x256x256 : 0 < S4x256x256.numel
  reducesTo_S16x256x256_S_d0_1_2 : S16x256x256.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x260x260.size a ≤ S16x3x260x260.size a
  hwx0_0 : ∀ i : grid0.Coords, EltTy.bits .f32 = 32 ∨ (Rect.block (s := S16x3x260x260) S4x3x260x260.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x256x256.size a ≤ S16x3x256x256.size a
  hwx0_1 : ∀ i : grid0.Coords, EltTy.bits .f32 = 32 ∨ (Rect.block (s := S16x3x256x256) S4x3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S16x256x256.size a
  hwx0_2 : ∀ i : grid0.Coords, EltTy.bits .f32 = 32 ∨ (Rect.block (s := S16x256x256) S4x256x256.size (cc0_transform_2 i) (hinb0_2 i)).WholeWords (EltTy.packing .f32)

variable [Facts₀]

abbrev win0_0 : Pipeline.Window sig grid0 :=
  Pipeline.Window.ofSpec (Memref.whole main_v0) S4x3x260x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x3x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x256x256 : Shape := ⟨4, ![16, 3, 256, 256]⟩
abbrev S_ : Shape := ⟨0, ![]⟩
abbrev S16x3x260x260 : Shape := ⟨4, ![16, 3, 260, 260]⟩
abbrev S1x16x3x256x256 : Shape := ⟨5, ![1, 16, 3, 256, 256]⟩
abbrev S16x16x3x256x256 : Shape := ⟨5, ![16, 16, 3, 256, 256]⟩
abbrev S9x16x3x256x256 : Shape := ⟨5, ![9, 16, 3, 256, 256]⟩
abbrev S25x16x3x256x256 : Shape := ⟨5, ![25, 16, 3, 256, 256]⟩
abbrev S25x16x256x256 : Shape := ⟨4, ![25, 16, 256, 256]⟩
abbrev S16x256x256 : Shape := ⟨3, ![16, 256, 256]⟩

abbrev nBuf : Space → Nat
  | .hbm => 68
  | .vmem => 0
  | .smem => 0
  | _ => 0

abbrev bufTy : (tb : Table) → Fin (tcTables nBuf tb) → BufTy
  | .hbm, ⟨0, _⟩ => ⟨S16x3x256x256, .f32⟩
  | .hbm, ⟨1, _⟩ => ⟨S16x3x256x256, .f32⟩
  | .hbm, ⟨2, _⟩ => ⟨S_, .f32⟩
  | .hbm, ⟨3, _⟩ => ⟨S_, .f32⟩
  | .hbm, ⟨4, _⟩ => ⟨S16x3x260x260, .f32⟩
  | .hbm, ⟨5, _⟩ => ⟨S16x3x256x256, .f32⟩
  | .hbm, ⟨6, _⟩ => ⟨S16x3x256x256, .f32⟩
  | .hbm, ⟨7, _⟩ => ⟨S16x3x256x256, .f32⟩
  | .hbm, ⟨8, _⟩ => ⟨S16x3x256x256, .f32⟩
  | .hbm, ⟨9, _⟩ => ⟨S16x3x256x256, .f32⟩
  | .hbm, ⟨10, _⟩ => ⟨S16x3x256x256, .f32⟩
  | .hbm, ⟨11, _⟩ => ⟨S16x3x256x256, .f32⟩
  | .hbm, ⟨12, _⟩ => ⟨S16x3x256x256, .f32⟩
  | .hbm, ⟨13, _⟩ => ⟨S16x3x256x256, .f32⟩
  | .hbm, ⟨14, _⟩ => ⟨S16x3x256x256, .f32⟩
  | .hbm, ⟨15, _⟩ => ⟨S16x3x256x256, .f32⟩
  | .hbm, ⟨16, _⟩ => ⟨S16x3x256x256, .f32⟩
  | .hbm, ⟨17, _⟩ => ⟨S16x3x256x256, .f32⟩
  | .hbm, ⟨18, _⟩ => ⟨S16x3x256x256, .f32⟩
  | .hbm, ⟨19, _⟩ => ⟨S16x3x256x256, .f32⟩
  | .hbm, ⟨20, _⟩ => ⟨S16x3x256x256, .f32⟩
  | .hbm, ⟨21, _⟩ => ⟨S16x3x256x256, .f32⟩
  | .hbm, ⟨22, _⟩ => ⟨S16x3x256x256, .f32⟩
  | .hbm, ⟨23, _⟩ => ⟨S16x3x256x256, .f32⟩
  | .hbm, ⟨24, _⟩ => ⟨S16x3x256x256, .f32⟩
  | .hbm, ⟨25, _⟩ => ⟨S16x3x256x256, .f32⟩
  | .hbm, ⟨26, _⟩ => ⟨S16x3x256x256, .f32⟩
  | .hbm, ⟨27, _⟩ => ⟨S16x3x256x256, .f32⟩
  | .hbm, ⟨28, _⟩ => ⟨S16x3x256x256, .f32⟩
  | .hbm, ⟨29, _⟩ => ⟨S16x3x256x256, .f32⟩
  | .hbm, ⟨30, _⟩ => ⟨S1x16x3x256x256, .f32⟩
  | .hbm, ⟨31, _⟩ => ⟨S1x16x3x256x256, .f32⟩
  | .hbm, ⟨32, _⟩ => ⟨S1x16x3x256x256, .f32⟩
  | .hbm, ⟨33, _⟩ => ⟨S1x16x3x256x256, .f32⟩
  | .hbm, ⟨34, _⟩ => ⟨S1x16x3x256x256, .f32⟩
  | .hbm, ⟨35, _⟩ => ⟨S1x16x3x256x256, .f32⟩
  | .hbm, ⟨36, _⟩ => ⟨S1x16x3x256x256, .f32⟩
  | .hbm, ⟨37, _⟩ => ⟨S1x16x3x256x256, .f32⟩
  | .hbm, ⟨38, _⟩ => ⟨S1x16x3x256x256, .f32⟩
  | .hbm, ⟨39, _⟩ => ⟨S1x16x3x256x256, .f32⟩
  | .hbm, ⟨40, _⟩ => ⟨S1x16x3x256x256, .f32⟩
  | .hbm, ⟨41, _⟩ => ⟨S1x16x3x256x256, .f32⟩
  | .hbm, ⟨42, _⟩ => ⟨S1x16x3x256x256, .f32⟩
  | .hbm, ⟨43, _⟩ => ⟨S1x16x3x256x256, .f32⟩
  | .hbm, ⟨44, _⟩ => ⟨S1x16x3x256x256, .f32⟩
  | .hbm, ⟨45, _⟩ => ⟨S1x16x3x256x256, .f32⟩
  | .hbm, ⟨46, _⟩ => ⟨S1x16x3x256x256, .f32⟩
  | .hbm, ⟨47, _⟩ => ⟨S1x16x3x256x256, .f32⟩
  | .hbm, ⟨48, _⟩ => ⟨S1x16x3x256x256, .f32⟩
  | .hbm, ⟨49, _⟩ => ⟨S1x16x3x256x256, .f32⟩
  | .hbm, ⟨50, _⟩ => ⟨S1x16x3x256x256, .f32⟩
  | .hbm, ⟨51, _⟩ => ⟨S1x16x3x256x256, .f32⟩
  | .hbm, ⟨52, _⟩ => ⟨S1x16x3x256x256, .f32⟩
  | .hbm, ⟨53, _⟩ => ⟨S1x16x3x256x256, .f32⟩
  | .hbm, ⟨54, _⟩ => ⟨S1x16x3x256x256, .f32⟩
  | .hbm, ⟨55, _⟩ => ⟨S16x16x3x256x256, .f32⟩
  | .hbm, ⟨56, _⟩ => ⟨S9x16x3x256x256, .f32⟩
  | .hbm, ⟨57, _⟩ => ⟨S25x16x3x256x256, .f32⟩
  | .hbm, ⟨58, _⟩ => ⟨S1x16x3x256x256, .f32⟩
  | .hbm, ⟨59, _⟩ => ⟨S25x16x3x256x256, .f32⟩
  | .hbm, ⟨60, _⟩ => ⟨S25x16x3x256x256, .f32⟩
  | .hbm, ⟨61, _⟩ => ⟨S25x16x3x256x256, .f32⟩
  | .hbm, ⟨62, _⟩ => ⟨S_, .f32⟩
  | .hbm, ⟨63, _⟩ => ⟨S25x16x256x256, .f32⟩
  | .hbm, ⟨64, _⟩ => ⟨S_, .f32⟩
  | .hbm, ⟨65, _⟩ => ⟨S16x256x256, .f32⟩
  | .hbm, ⟨66, _⟩ => ⟨S_, .f32⟩
  | .hbm, ⟨67, _⟩ => ⟨S_, .f32⟩
  | _, _ => ⟨S16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_cst_0 : Ref sig .tc := ⟨.hbm, 62, rfl⟩
abbrev main_v58 : Ref sig .tc := ⟨.hbm, 63, rfl⟩
abbrev main_cst_1 : Ref sig .tc := ⟨.hbm, 64, rfl⟩
abbrev main_v59 : Ref sig .tc := ⟨.hbm, 65, rfl⟩
abbrev main_cst_2 : Ref sig .tc := ⟨.hbm, 66, rfl⟩
abbrev main_v60 : Ref sig .tc := ⟨.hbm, 67, rfl⟩

abbrev nD : Nat := 1
abbrev τ : Topo := Topo.v7x

variable {F : FTy → Type} [FloatOps F]

class Facts₀ : Prop where
  pads_S16x3x256x256_S16x3x260x260_000_000_220_220 : S16x3x256x256.Pads (![0, 0, 2, 2] : Fin 4 → Nat) ![0, 0, 2, 2] ![0, 0, 0, 0] S16x3x260x260
  h_S_ : 0 < S_.numel
  slices_S16x3x260x260_S16x3x256x256_0_0_0_0 : S16x3x260x260.Slices ![0, 0, 0, 0] S16x3x256x256
  slices_S16x3x260x260_S16x3x256x256_0_0_0_1 : S16x3x260x260.Slices ![0, 0, 0, 1] S16x3x256x256
  slices_S16x3x260x260_S16x3x256x256_0_0_0_2 : S16x3x260x260.Slices ![0, 0, 0, 2] S16x3x256x256
  slices_S16x3x260x260_S16x3x256x256_0_0_0_3 : S16x3x260x260.Slices ![0, 0, 0, 3] S16x3x256x256
  slices_S16x3x260x260_S16x3x256x256_0_0_0_4 : S16x3x260x260.Slices ![0, 0, 0, 4] S16x3x256x256
  slices_S16x3x260x260_S16x3x256x256_0_0_1_0 : S16x3x260x260.Slices ![0, 0, 1, 0] S16x3x256x256
  slices_S16x3x260x260_S16x3x256x256_0_0_1_1 : S16x3x260x260.Slices ![0, 0, 1, 1] S16x3x256x256
  slices_S16x3x260x260_S16x3x256x256_0_0_1_2 : S16x3x260x260.Slices ![0, 0, 1, 2] S16x3x256x256
  slices_S16x3x260x260_S16x3x256x256_0_0_1_3 : S16x3x260x260.Slices ![0, 0, 1, 3] S16x3x256x256
  slices_S16x3x260x260_S16x3x256x256_0_0_1_4 : S16x3x260x260.Slices ![0, 0, 1, 4] S16x3x256x256
  slices_S16x3x260x260_S16x3x256x256_0_0_2_0 : S16x3x260x260.Slices ![0, 0, 2, 0] S16x3x256x256
  slices_S16x3x260x260_S16x3x256x256_0_0_2_1 : S16x3x260x260.Slices ![0, 0, 2, 1] S16x3x256x256
  slices_S16x3x260x260_S16x3x256x256_0_0_2_2 : S16x3x260x260.Slices ![0, 0, 2, 2] S16x3x256x256
  slices_S16x3x260x260_S16x3x256x256_0_0_2_3 : S16x3x260x260.Slices ![0, 0, 2, 3] S16x3x256x256
  slices_S16x3x260x260_S16x3x256x256_0_0_2_4 : S16x3x260x260.Slices ![0, 0, 2, 4] S16x3x256x256
  slices_S16x3x260x260_S16x3x256x256_0_0_3_0 : S16x3x260x260.Slices ![0, 0, 3, 0] S16x3x256x256
  slices_S16x3x260x260_S16x3x256x256_0_0_3_1 : S16x3x260x260.Slices ![0, 0, 3, 1] S16x3x256x256
  slices_S16x3x260x260_S16x3x256x256_0_0_3_2 : S16x3x260x260.Slices ![0, 0, 3, 2] S16x3x256x256
  slices_S16x3x260x260_S16x3x256x256_0_0_3_3 : S16x3x260x260.Slices ![0, 0, 3, 3] S16x3x256x256
  slices_S16x3x260x260_S16x3x256x256_0_0_3_4 : S16x3x260x260.Slices ![0, 0, 3, 4] S16x3x256x256
  slices_S16x3x260x260_S16x3x256x256_0_0_4_0 : S16x3x260x260.Slices ![0, 0, 4, 0] S16x3x256x256
  slices_S16x3x260x260_S16x3x256x256_0_0_4_1 : S16x3x260x260.Slices ![0, 0, 4, 1] S16x3x256x256
  slices_S16x3x260x260_S16x3x256x256_0_0_4_2 : S16x3x260x260.Slices ![0, 0, 4, 2] S16x3x256x256
  slices_S16x3x260x260_S16x3x256x256_0_0_4_3 : S16x3x260x260.Slices ![0, 0, 4, 3] S16x3x256x256
  slices_S16x3x260x260_S16x3x256x256_0_0_4_4 : S16x3x260x260.Slices ![0, 0, 4, 4] S16x3x256x256
  bcast_S16x3x256x256_S1x16x3x256x256_1_2_3_4 : S16x3x256x256.BroadcastsInDim S1x16x3x256x256 (![1, 2, 3, 4] : Fin 4 → Fin S1x16x3x256x256.rank)
  concatenates_S1x16x3x256x256_S1x16x3x256x256_S1x16x3x256x256_S1x16x3x256x256_S1x16x3x256x256_S1x16x3x256x256_S1x16x3x256x256_S1x16x3x256x256_S1x16x3x256x256_S1x16x3x256x256_S1x16x3x256x256_S1x16x3x256x256_S1x16x3x256x256_S1x16x3x256x256_S1x16x3x256x256_S1x16x3x256x256_S16x16x3x256x256_d0 : Shape.Concatenates [S1x16x3x256x256, S1x16x3x256x256, S1x16x3x256x256, S1x16x3x256x256, S1x16x3x256x256, S1x16x3x256x256, S1x16x3x256x256, S1x16x3x256x256, S1x16x3x256x256, S1x16x3x256x256, S1x16x3x256x256, S1x16x3x256x256, S1x16x3x256x256, S1x16x3x256x256, S1x16x3x256x256, S1x16x3x256x256] S16x16x3x256x256 0
  concatenates_S1x16x3x256x256_S1x16x3x256x256_S1x16x3x256x256_S1x16x3x256x256_S1x16x3x256x256_S1x16x3x256x256_S1x16x3x256x256_S1x16x3x256x256_S1x16x3x256x256_S9x16x3x256x256_d0 : Shape.Concatenates [S1x16x3x256x256, S1x16x3x256x256, S1x16x3x256x256, S1x16x3x256x256, S1x16x3x256x256, S1x16x3x256x256, S1x16x3x256x256, S1x16x3x256x256, S1x16x3x256x256] S9x16x3x256x256 0
  concatenates_S16x16x3x256x256_S9x16x3x256x256_S25x16x3x256x256_d0 : Shape.Concatenates [S16x16x3x256x256, S9x16x3x256x256] S25x16x3x256x256 0
  bcast_S1x16x3x256x256_S25x16x3x256x256_0_1_2_3_4 : S1x16x3x256x256.BroadcastsInDim S25x16x3x256x256 (![0, 1, 2, 3, 4] : Fin 5 → Fin S25x16x3x256x256.rank)
  reducesTo_S25x16x3x256x256_S25x16x256x256_d2 : S25x16x3x256x256.ReducesTo [2] S25x16x256x256
  reducesTo_S25x16x256x256_S16x256x256_d0 : S25x16x256x256.ReducesTo [0] S16x256x256
  reducesTo_S16x256x256_S_d0_1_2 : S16x256x256.ReducesTo [0, 1, 2] S_

variable [Facts₀]

class Facts : Prop extends Facts₀ where

variable [Facts]
-- ==== Proof.LibRunningMin.lean ====
/-
  The running minimum of finitely many values is the fold of `min` from the top element.
-/
import Mathlib.Data.Fintype.Basic
import Mathlib.Data.Finset.Fold
import Mathlib.Order.BoundedOrder.Lattice

namespace Cert.RunningMin

variable {α : Type} [LinearOrder α] [OrderTop α]

/-- The running minimum `min (… (min (T 0) (T 1)) …) (T n)` of `n + 1` values, taken left to right. -/
def chainMin : (n : Nat) → (Fin (n + 1) → α) → α
  | 0, T => T 0
  | n + 1, T => min (chainMin n fun k => T k.castSucc) (T (Fin.last (n + 1)))

/-- In a linear order with a top element, the fold of `min` from `⊤` over `n + 1` values — a reduce-min from `+∞` over
    an axis — is their running minimum: split off the last value; `min` is commutative and `⊤` is its unit. -/
theorem fold_min_eq_chainMin (n : Nat) (T : Fin (n + 1) → α) :
    (Finset.univ : Finset (Fin (n + 1))).fold min ⊤ T = chainMin n T := by
  induction n with
  | zero => simp [chainMin]
  | succ n ih =>
    rw [chainMin, ← ih, Fin.univ_castSuccEmb, Finset.fold_cons, Finset.fold_map, min_comm]
    rfl

end Cert.RunningMin
-- ==== Proof.Nearest.lean ====
/-
  The nearest-neighbour map, as one function of two arrays, and the one law of order that joins its two spellings.

  For an array `P` of shape [n, 3, 260, 260] (an image batch padded by two pixels on every side of its last two
  axes) and an array `Q` of shape [n, 3, 256, 256], the COST of neighbour `k` (`k = 5·i + j`, the window offset
  `(i, j)` in row-major order over the 5 × 5 window) at pixel `(b, h, w)` is the channel sum
  `∑ c, |P (b, c, h + i, w + j) − Q (b, c, h, w)|`, and the map takes, at each pixel, the least cost over the 25
  neighbours. On the extended reals `|x| = max x (−x)`, and a minimum over a finite family is the fold of `min` from
  `⊤ = +∞`. A running minimum `min (… (min (T 0) (T 1)) …) (T 24)` is the same number: `min` is associative and
  commutative and `⊤` is its unit, so no finiteness of the entries is needed.
-/
import Idealize.ShloMosaic.PureOps.Ideal
import Idealize.ShloMosaic.Lib.ValueIdx
import proofs.«181812_j48756468744869_1_alg».proof.Proof.LibRunningMin

noncomputable section

open scoped BigOperators

namespace Cert.Nearest

open Idealize.ShloMosaic Idealize.ShloMosaic.ValueIdx Cert.RunningMin

/-- The padded array's index `(b, c, h + k / 5, w + k % 5)`: neighbour `k` of pixel `(h, w)` in channel `c`. -/
def nbr {n : Nat} (k : Fin 25) (b : Fin n) (c : Fin 3) (h w : Fin 256) : (⟨4, ![n, 3, 260, 260]⟩ : Shape).Idx :=
  ix4 b c ⟨h.val + k.val / 5, by omega⟩ ⟨w.val + k.val % 5, by omega⟩

/-- The channel-summed absolute difference between neighbour `k` in `P` and the pixel in `Q`. -/
def cost {n : Nat} (P : (⟨4, ![n, 3, 260, 260]⟩ : Shape).Idx → EReal) (Q : (⟨4, ![n, 3, 256, 256]⟩ : Shape).Idx → EReal)
    (k : Fin 25) (b : Fin n) (h w : Fin 256) : EReal :=
  ∑ c : Fin 3, max (P (nbr k b c h w) - Q (ix4 b c h w)) (-(P (nbr k b c h w) - Q (ix4 b c h w)))

/-- The least cost over the 25 neighbours, at pixel `(b, h, w)`. -/
def leastAt {n : Nat} (P : (⟨4, ![n, 3, 260, 260]⟩ : Shape).Idx → EReal) (Q : (⟨4, ![n, 3, 256, 256]⟩ : Shape).Idx → EReal)
    (b : Fin n) (h w : Fin 256) : EReal :=
  (Finset.univ : Finset (Fin 25)).fold min ⊤ fun k => cost P Q k b h w

/-- The nearest-neighbour map as an array of shape [n, 256, 256]. -/
def nearest {n : Nat} (P : (⟨4, ![n, 3, 260, 260]⟩ : Shape).Idx → EReal) (Q : (⟨4, ![n, 3, 256, 256]⟩ : Shape).Idx → EReal) :
    (⟨3, ![n, 256, 256]⟩ : Shape).Idx → EReal :=
  fun j => leastAt P Q (j 0) (j 1) (j 2)

theorem nearest_ix3 {n : Nat} (P : (⟨4, ![n, 3, 260, 260]⟩ : Shape).Idx → EReal) (Q : (⟨4, ![n, 3, 256, 256]⟩ : Shape).Idx → EReal)
    (b : Fin n) (h w : Fin 256) : nearest P Q (ix3 b h w) = leastAt P Q b h w := rfl

/-- So the least cost is the running minimum of the 25 costs in row-major order of the window. -/
theorem leastAt_eq_chainMin {n : Nat} (P : (⟨4, ![n, 3, 260, 260]⟩ : Shape).Idx → EReal)
    (Q : (⟨4, ![n, 3, 256, 256]⟩ : Shape).Idx → EReal) (b : Fin n) (h w : Fin 256) :
    leastAt P Q b h w = chainMin 24 fun k => cost P Q k b h w :=
  fold_min_eq_chainMin 24 _

end Cert.Nearest

end
-- ==== Proof.KernelBody.lean ====
/-
  What the kernel's body leaves in its output block, entry by entry.

  The body loads the pixel block `x1` ([4, 3, 256, 256]) once and, for each window offset `(i, j)` in row-major
  order, the [4, 3, 256, 256] rectangle of the padded block `x0` ([4, 3, 260, 260]) that starts at `(0, 0, i, j)`;
  it takes the absolute difference, sums over the channel axis, and keeps a running minimum. So entry `(b, h, w)` of
  the stored block is the running minimum over `k = 5·i + j` of the cost of neighbour `k` (Nearest.lean's `cost`,
  read on the two blocks).
-/
import proofs.«181812_j48756468744869_1_alg».proof.Proof.Gen.KernelIdeal.Frame
import proofs.«181812_j48756468744869_1_alg».proof.Proof.Nearest
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.Nearest Cert.RunningMin

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The window offset `(i, j)` is neighbour `5·i + j`. -/
theorem nbr_lt {i j : Nat} (inb : ∀ a, (![0, 0, i, j] : Fin 4 → Nat) a + S4x3x256x256.size a ≤ S4x3x260x260.size a) :
    5 * i + j < 25 := by
  have h2 : i + 256 ≤ 260 := inb 2
  have h3 : j + 256 ≤ 260 := inb 3
  omega

/-- ONE neighbour's term: the channel sum of `|x0 (b, c, h + i, w + j) − x1 (b, c, h, w)|`, the rectangle of `x0`
    at offset `(0, 0, i, j)` being `x0` read at the shifted index. -/
theorem shift_cost (x0 : Vec Ideal S4x3x260x260 .f32) (x1 : Vec Ideal S4x3x256x256 .f32) (i j : Nat)
    (inb : ∀ a, (![0, 0, i, j] : Fin 4 → Nat) a + S4x3x256x256.size a ≤ S4x3x260x260.size a)
    (b : Fin 4) (h w : Fin 256) :
    multiReduction (F := Ideal) .add [1] S4x256x256
        (absf (subf (shapeCast S4x3x256x256
          (View.ld (Val := Elt Ideal) x0 (Rect.unit (s := S4x3x260x260) ![0, 0, i, j] S4x3x256x256.size inb) : Vec Ideal S4x3x256x256 .f32)
          shapeCasts_S4x3x256x256_S4x3x256x256) x1))
        0x00000000#32 reduces_S4x3x256x256_S4x256x256 (.inl rfl) rfl (ix3 b h w)
      = cost (n := 4) x0 x1 ⟨5 * i + j, nbr_lt inb⟩ b h w := by
  have h2 : i + 256 ≤ 260 := inb 2
  have h3 : j + 256 ≤ 260 := inb 3
  refine (Ideal.multiReduction_add_single _ 0x00000000#32 reduces_S4x3x256x256_S4x256x256 (.inl rfl) rfl (ix3 b h w)).trans ?_
  unfold cost
  refine Finset.sum_congr rfl fun (c : Fin 3) _ => ?_
  have hl : reduces_S4x3x256x256_S4x256x256.lift (ix3 b h w) c = ix4 b c h w := by
    funext a; apply Fin.ext
    match a with
    | ⟨0, _⟩ => rfl
    | ⟨1, _⟩ => rfl
    | ⟨2, _⟩ => rfl
    | ⟨3, _⟩ => rfl
  have hn : (Rect.unit (s := S4x3x260x260) ![0, 0, i, j] S4x3x256x256.size inb).idx (ix4 b c h w)
      = nbr (n := 4) ⟨5 * i + j, nbr_lt inb⟩ b c h w := by
    funext a; apply Fin.ext
    match a with
    | ⟨0, _⟩ => show 0 + 1 * b.val = b.val; omega
    | ⟨1, _⟩ => show 0 + 1 * c.val = c.val; omega
    | ⟨2, _⟩ => show i + 1 * h.val = h.val + (5 * i + j) / 5; omega
    | ⟨3, _⟩ => show j + 1 * w.val = w.val + (5 * i + j) % 5; omega
  have e : shapeCast S4x3x256x256 (View.ld (Val := Elt Ideal) x0 (Rect.unit (s := S4x3x260x260) ![0, 0, i, j] S4x3x256x256.size inb))
      shapeCasts_S4x3x256x256_S4x3x256x256 (ix4 b c h w) = x0 (nbr (n := 4) ⟨5 * i + j, nbr_lt inb⟩ b c h w) :=
    (congrFun (shapeCast_self _ _) (ix4 b c h w)).trans (congrArg x0 hn)
  rw [hl]
  show max (shapeCast S4x3x256x256 (View.ld (Val := Elt Ideal) x0 (Rect.unit (s := S4x3x260x260) ![0, 0, i, j] S4x3x256x256.size inb))
        shapeCasts_S4x3x256x256_S4x3x256x256 (ix4 b c h w) - x1 (ix4 b c h w))
      (-(shapeCast S4x3x256x256 (View.ld (Val := Elt Ideal) x0 (Rect.unit (s := S4x3x260x260) ![0, 0, i, j] S4x3x256x256.size inb))
        shapeCasts_S4x3x256x256_S4x3x256x256 (ix4 b c h w) - x1 (ix4 b c h w))) = _
  rw [e]

/-- THE STORED BLOCK: entry `(b, h, w)` is the running minimum of the 25 neighbours' costs. -/
theorem out_apply (x0 : Vec Ideal S4x3x260x260 .f32) (x1 : Vec Ideal S4x3x256x256 .f32) (b : Fin 4) (h w : Fin 256) :
    out0_2 x0 x1 (ix3 b h w) = chainMin 24 fun k => cost (n := 4) x0 x1 k b h w := by
  unfold out0_2
  rw [View.canon_unit_zero zeros3]
  simp only [View.ld_unit_zero (S := S4x3x256x256) zeros4]
  unfold k0_pay1 k0_pay6 k0_pay4 k0_pay3 k0_pay2 k0_pay5
  simp only [minimumf_apply]
  repeat rw [shift_cost]
  simp only [chainMin]
  rfl

end Cert.KernelIdeal.Body

end
-- ==== Proof.KernelWhole.lean ====
/-
  From the kernel's blocks to its whole output array, and the kernel's run with its result named.

  Grid point `t` (of 4) works on images `4·t … 4·t + 3`: each window's block index is `(t, 0, …)`, so a block's entry
  `(b, …)` is its array's entry `(4·t + b, …)`. The cost of a neighbour read on the two blocks is therefore the cost read
  on the two whole arrays at image `4·t + b`, the block point `t` writes back is the block of the nearest-neighbour
  map of the whole arrays, and the four blocks tile the output. The program then sums that array over all its axes;
  the padded array the kernel reads is the host's `pad` of the second argument by the constant the program names.
-/
import proofs.«181812_j48756468744869_1_alg».proof.Proof.Gen.KernelIdeal.Frame
import proofs.«181812_j48756468744869_1_alg».proof.Proof.Nearest
import proofs.«181812_j48756468744869_1_alg».proof.Proof.KernelBody
import Idealize.ShloMosaic.Lib.Pipeline.Value
import Idealize.ShloMosaic.Lib.ValueIdx
import Idealize.ShloMosaic.Lib.StableHlo.Run

noncomputable section

open scoped BigOperators

namespace Cert.KernelIdeal.Whole

open Idealize.ShloMosaic Idealize.ShloMosaic.TcCoe Idealize.ShloMosaic.ValueIdx Idealize.SL.Sem
open Cert.KernelIdeal Cert.KernelIdeal.Gen Cert.Nearest Cert.RunningMin

/-- The second argument padded by two on every side of its last two axes with the constant the program names. -/
def padded (x : S16x3x256x256.Idx → Elt Ideal .f32) : S16x3x260x260.Idx → Elt Ideal .f32 :=
  pad S16x3x260x260 ![0, 0, 2, 2] ![0, 0, 2, 2] ![0, 0, 0, 0] x (id (constant (F := Ideal) S_ .f32 0x7149F2CA#32))
    pads_S16x3x256x256_S16x3x260x260_000_000_220_220 h_S_

/-- The program's last line: the sum of a [16, 256, 256] array over all its axes, from zero. -/
def total (X : S16x256x256.Idx → Elt Ideal .f32) : S_.Idx → Elt Ideal .f32 :=
  Host.reduceAdd X (constant (F := Ideal) S_ .f32 0x00000000#32) reducesTo_S16x256x256_S_d0_1_2 h_S_

variable (m : (ℓ : Loc nD τ sig) → Buf (Elt Ideal) ℓ) (ρ : Dev nD → PrngReg)

/-- Every window's block index at grid point `t` is `(t, 0, …)`, decided over the grid. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 ∧ t.val < 4 :=
  (by decide +kernel : ∀ t : Fin grid0.N, _)

/-- AT ONE GRID POINT, over any blocks that are the arrays' images `4·t … 4·t + 3`: the stored block's entry
    `(b, h, w)` is the nearest-neighbour map of the arrays at `(4·t + b, h, w)`. -/
theorem point_eq (P : S16x3x260x260.Idx → EReal) (Q : S16x3x256x256.Idx → EReal)
    (x0 : Vec Ideal S4x3x260x260 .f32) (x1 : Vec Ideal S4x3x256x256 .f32) (t : Nat) (ht : t < 4)
    (h0 : ∀ (b : Fin 4) (c : Fin 3) (h w : Fin 260), x0 (ix4 b c h w) = P (ix4 ⟨4 * t + b.val, by omega⟩ c h w))
    (h1 : ∀ (b : Fin 4) (c : Fin 3) (h w : Fin 256), x1 (ix4 b c h w) = Q (ix4 ⟨4 * t + b.val, by omega⟩ c h w))
    (b : Fin 4) (h w : Fin 256) :
    out0_2 x0 x1 (ix3 b h w) = nearest (n := 16) P Q (ix3 ⟨4 * t + b.val, by omega⟩ h w) := by
  rw [Body.out_apply, nearest_ix3, leastAt_eq_chainMin]
  refine congrArg (chainMin 24) (funext fun k => ?_)
  unfold cost
  refine Finset.sum_congr rfl fun c _ => ?_
  have e0 : x0 (nbr (n := 4) k b c h w) = P (nbr (n := 16) k ⟨4 * t + b.val, by omega⟩ c h w) := h0 b c _ _
  rw [e0, h1 b c h w]

/-- WHAT GRID POINT `t` WRITES BACK is block `t` of the nearest-neighbour map of the arrays the region finds. -/
theorem flushed_eq (c : Dev nD) (t : Fin cfg0.N) :
    (dats m 0 c).flushed 2 t
      = ((cfg0.win 2).blk t).view.read (Elt Ideal) (nearest (n := 16) (V m c main_v0) (V m c main_arg0)) := by
  show (cfg0.win 2).cut (grid0.coords t) ((dats m 0 c).after 2 t) = _
  rw [after0_2]
  obtain ⟨a0, a1, a2, a3, b0, b1, b2, b3, o0, o1, o2, ht⟩ := idx_facts t
  funext y
  obtain ⟨b, h, w, rfl⟩ : ∃ (b : Fin 4) (h w : Fin 256), y = ix3 b h w := ⟨y 0, y 1, y 2, eq_ix3 y⟩
  refine (point_eq (V m c main_v0) (V m c main_arg0) (iblk m c 0 t) (iblk m c 1 t) t.val ht ?_ ?_ b h w).trans ?_
  · intro p q r s
    show V m c main_v0 (((cfg0.win 0).blk t).view.emb (ix4 p q r s)) = _
    refine congrArg _ (funext fun a => Fin.ext ?_)
    match a with
    | ⟨0, _⟩ => show win0_0.index t (0 : Fin 4) * 4 + 1 * p.val = 4 * t.val + p.val; omega
    | ⟨1, _⟩ => show win0_0.index t (1 : Fin 4) * 3 + 1 * q.val = q.val; omega
    | ⟨2, _⟩ => show win0_0.index t (2 : Fin 4) * 260 + 1 * r.val = r.val; omega
    | ⟨3, _⟩ => show win0_0.index t (3 : Fin 4) * 260 + 1 * s.val = s.val; omega
  · intro p q r s
    show V m c main_arg0 (((cfg0.win 1).blk t).view.emb (ix4 p q r s)) = _
    refine congrArg _ (funext fun a => Fin.ext ?_)
    match a with
    | ⟨0, _⟩ => show win0_1.index t (0 : Fin 4) * 4 + 1 * p.val = 4 * t.val + p.val; omega
    | ⟨1, _⟩ => show win0_1.index t (1 : Fin 4) * 3 + 1 * q.val = q.val; omega
    | ⟨2, _⟩ => show win0_1.index t (2 : Fin 4) * 256 + 1 * r.val = r.val; omega
    | ⟨3, _⟩ => show win0_1.index t (3 : Fin 4) * 256 + 1 * s.val = s.val; omega
  · show _ = nearest (n := 16) (V m c main_v0) (V m c main_arg0) (((cfg0.win 2).blk t).view.emb (ix3 b h w))
    refine congrArg _ (funext fun a => Fin.ext ?_)
    match a with
    | ⟨0, _⟩ => show 4 * t.val + b.val = win0_2.index t (0 : Fin 3) * 4 + 1 * b.val; omega
    | ⟨1, _⟩ => show h.val = win0_2.index t (1 : Fin 3) * 256 + 1 * h.val; omega
    | ⟨2, _⟩ => show w.val = win0_2.index t (2 : Fin 3) * 256 + 1 * w.val; omega

/-- An index of the output array is in point `t`'s block iff each coordinate is in the block's range on its axis. -/
theorem mem_blk (t : Fin cfg0.N) (i : S16x256x256.Idx) :
    i ∈ ((cfg0.win 2).blk t).view.set ↔ ∀ a : Fin 3, win0_2.index t a * S4x256x256.size a ≤ (i a).val
      ∧ (i a).val < win0_2.index t a * S4x256x256.size a + S4x256x256.size a := by
  show i ∈ ((View.whole main_v1).slice (win0_2.rect t)).set ↔ _
  rw [View.set_slice_whole, Rect.mem_set_unit]
  exact Iff.rfl

/-- The four blocks tile the output: image `i` lies in the block of point `i / 4`. -/
theorem cover (i : S16x256x256.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 256 := (i 2).isLt
  have hN : (i 0).val / 4 < cfg0.N := by show _ < grid0.N; rw [N_0]; omega
  obtain ⟨-, -, -, -, -, -, -, -, o0, o1, o2, -⟩ := idx_facts ⟨(i 0).val / 4, hN⟩
  have o0' : win0_2.index ⟨(i 0).val / 4, hN⟩ (0 : Fin 3) = (i 0).val / 4 := o0
  refine ⟨⟨(i 0).val / 4, hN⟩, flush0_2 _, ?_⟩
  rw [mem_blk]
  intro a
  match a with
  | ⟨0, _⟩ =>
    show win0_2.index ⟨(i 0).val / 4, hN⟩ (0 : Fin 3) * 4 ≤ (i 0).val ∧ (i 0).val < win0_2.index ⟨(i 0).val / 4, hN⟩ (0 : Fin 3) * 4 + 4
    omega
  | ⟨1, _⟩ =>
    show win0_2.index ⟨(i 0).val / 4, hN⟩ (1 : Fin 3) * 256 ≤ (i 1).val ∧ (i 1).val < win0_2.index ⟨(i 0).val / 4, hN⟩ (1 : Fin 3) * 256 + 256
    omega
  | ⟨2, _⟩ =>
    show win0_2.index ⟨(i 0).val / 4, hN⟩ (2 : Fin 3) * 256 ≤ (i 2).val ∧ (i 2).val < win0_2.index ⟨(i 0).val / 4, hN⟩ (2 : Fin 3) * 256 + 256
    omega

/-- THE OUTPUT ARRAY after the region: the nearest-neighbour map of the arrays the region finds. -/
theorem final (c : Dev nD) :
    (dats m 0 c).arrAt 2 cfg0.N = nearest (n := 16) (V m c main_v0) (V m c main_arg0) :=
  (dats m 0 c).arrAt_eq_of_cover 2 _ (fun t _ => flushed_eq m c t) cover

/-- The padded array the region finds is the host's `pad` of the second argument. -/
theorem V_padded (c : Dev nD) : (V m c main_v0 : S16x3x260x260.Idx → Elt Ideal .f32) = padded (m ((c.tc : Thread nD τ).loc main_arg1)) := by
  dsimp only [Gen.V, Gen.V0]
  simp only [Gen.hostOps0, Gen.hostOps0_1, List.flatten_cons, List.flatten_nil, List.append_nil, List.cons_append, List.nil_append]
  after_results
  rfl

/-- THE RUN, its result named: the sum over all pixels of the nearest-neighbour map of the padded second
    argument and the first argument; the arguments unchanged. -/
theorem run : θ_run defs (onTc (τ := τ) (main (F := Ideal))) ⟨m, fun _ => 0, ρ⟩ fun r => ∀ c : Dev nD,
      r.2.mem ((c.tc : Thread nD τ).loc main_v2)
        = total (nearest (n := 16) (padded (m ((c.tc : Thread nD τ).loc main_arg1))) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v2 (Pipeline.mem_restRefs_of main_v2 (by decide) (by decide))).trans ?_
    unfold Pipeline.afterTail₀
    show StableHlo.after hostOps1 _ (Proc.devRef .tc main_v2) = _
    after_results
    rw [Pipeline.withArrays_arr spec0 launch0.win.arr_inj c _ _ 2, final m c, V_padded m c, V_main_arg0 m c]
    rfl
  · exact ((h c).1 1).trans (((dats m 0 c).arrAt_in 1 rfl _).trans ((A_eq m c 1).trans (V_main_arg0 m c)))
  · exact ((h c).2 main_arg1 (Pipeline.mem_restRefs_of main_arg1 (by decide) (by decide))).trans (W_main_arg1 m (dats m) c)

end Cert.KernelIdeal.Whole

end
-- ==== Proof.RefNearest.lean ====
/-
  The reference's minimum map is the nearest-neighbour map of the padded second argument and the first argument.

  The reference slices the padded array 25 times (offset `(i, j)` of the 5 × 5 window, row-major), gives each slice
  a leading axis of length one, stacks the 25 layers (sixteen, then nine, then the two stacks), subtracts the first
  argument broadcast along the new axis, takes absolute values, sums over the channel axis from zero and takes the
  minimum over the layer axis from `+∞`. Layer `k` of the stack, at `(b, c, h, w)`, is the padded array at
  `(b, c, h + k / 5, w + k % 5)`: that is the only fact about the stack that is needed, and it is read off layer by
  layer (a concatenation at an index is the piece whose span holds the coordinate on the joined axis).
-/
import proofs.«181812_j48756468744869_1_alg».proof.Proof.RefRead
import proofs.«181812_j48756468744869_1_alg».proof.Proof.Nearest
import Idealize.ShloMosaic.Lib.Pipeline.Value
import Idealize.ShloMosaic.Lib.ValueIdx
import Idealize.ShloMosaic.PureOps.Ideal.Laws

noncomputable section

open scoped BigOperators

namespace Cert.ReferenceIdeal.Stack

open Idealize.ShloMosaic Idealize.ShloMosaic.ValueIdx Cert.ReferenceIdeal Cert.ReferenceIdeal.Gen Cert.ReferenceIdeal.Read Cert.Nearest

/-- A stack of `N` layers. -/
abbrev Layers (N : Nat) : Shape := ⟨5, ![N, 16, 3, 256, 256]⟩

/-- LAYER `k` of a concatenation, along the leading axis, of one-layer pieces is piece `k`. -/
theorem layer_of {N : Nat} (pcs : List ((s : Shape) × (s.Idx → EReal)))
    (hcat : Shape.Concatenates (pcs.map (·.1)) (Layers N) 0)
    (k : Fin N) (hk : k.val < pcs.length) (p : (Layers 1).Idx → EReal) (hp : pcs[k.val] = ⟨Layers 1, p⟩)
    (hpre : (((pcs.take k.val).map (·.1)).map fun s =>
      if h : s.rank = (Layers N).rank then s.size ((0 : Fin (Layers N).rank).cast h.symm) else 0).sum = k.val)
    (b : Fin 16) (c : Fin 3) (h w : Fin 256) :
    concatenate (Layers N) 0 pcs hcat (ix5 k b c h w) = p (ix5 0 b c h w) :=
  concatenate_apply_piece 0 pcs hcat (ix5 k b c h w) k.val hk (Layers 1) p hp rfl k.val hpre (ix5 0 b c h w)
    (fun a ha => by
      match a with
      | ⟨0, _⟩ => exact absurd rfl ha
      | ⟨1, _⟩ => rfl
      | ⟨2, _⟩ => rfl
      | ⟨3, _⟩ => rfl
      | ⟨4, _⟩ => rfl)
    (by show k.val + 0 = k.val; rfl)

/-- ONE PIECE: the slice of `P` at offset `(0, 0, i, j)`, given a leading unit axis, read at `(0, b, c, h, w)`, is
    `P` at neighbour `k = 5·i + j` of the pixel. -/
theorem piece_apply (P : S16x3x260x260.Idx → EReal) (i j : Nat)
    (hs : S16x3x260x260.Slices ![0, 0, i, j] S16x3x256x256) (k : Fin 25) (hk : k.val = 5 * i + j) (hj : j < 5)
    (b : Fin 16) (c : Fin 3) (h w : Fin 256) :
    broadcastInDim S1x16x3x256x256 ![1, 2, 3, 4] bcast_S16x3x256x256_S1x16x3x256x256_1_2_3_4
      (extractStridedSlice S16x3x256x256 ![0, 0, i, j] P hs) (ix5 0 b c h w) = P (nbr (n := 16) k b c h w) := by
  rw [broadcastInDim_apply _ bcast_S16x3x256x256_S1x16x3x256x256_1_2_3_4 _ (ix5 0 b c h w) (ix4 b c h w) (fun a => by
    match a with
    | ⟨0, _⟩ => show b.val = if (16 : Nat) = 1 then 0 else b.val; rw [if_neg (by decide)]
    | ⟨1, _⟩ => show c.val = if (3 : Nat) = 1 then 0 else c.val; rw [if_neg (by decide)]
    | ⟨2, _⟩ => show h.val = if (256 : Nat) = 1 then 0 else h.val; rw [if_neg (by decide)]
    | ⟨3, _⟩ => show w.val = if (256 : Nat) = 1 then 0 else w.val; rw [if_neg (by decide)])]
  exact extractStridedSlice_apply _ P hs (ix4 b c h w) (nbr (n := 16) k b c h w) (fun a => by
    match a with
    | ⟨0, _⟩ => show b.val = 0 + b.val; omega
    | ⟨1, _⟩ => show c.val = 0 + c.val; omega
    | ⟨2, _⟩ => show h.val + k.val / 5 = i + h.val; omega
    | ⟨3, _⟩ => show w.val + k.val % 5 = j + w.val; omega)

variable (x0 x1 : S16x3x256x256.Idx → Elt Ideal .f32)

set_option maxHeartbeats 2000000 in
/-- The first sixteen layers of the stack, layer by layer. -/
theorem lo_apply (k : Fin 16) (b : Fin 16) (c : Fin 3) (h w : Fin 256) :
    val_main_v51 (F := Ideal) x1 (ix5 k b c h w) = val_main_v0 (F := Ideal) x1 (nbr (n := 16) ⟨k.val, by omega⟩ b c h w) := by
  unfold val_main_v51
  fin_cases k
  all_goals
    refine Eq.trans (layer_of _ _ _ (Nat.lt_of_lt_of_le (Fin.isLt _) (Nat.le_refl _)) _ rfl rfl b c h w) ?_
    exact piece_apply _ _ _ _ _ rfl (by decide) b c h w

set_option maxHeartbeats 2000000 in
/-- The last nine layers of the stack, layer by layer. -/
theorem hi_apply (k : Fin 9) (b : Fin 16) (c : Fin 3) (h w : Fin 256) :
    val_main_v52 (F := Ideal) x1 (ix5 k b c h w) = val_main_v0 (F := Ideal) x1 (nbr (n := 16) ⟨16 + k.val, by omega⟩ b c h w) := by
  unfold val_main_v52
  fin_cases k
  all_goals
    refine Eq.trans (layer_of _ _ _ (Nat.lt_of_lt_of_le (Fin.isLt _) (Nat.le_refl _)) _ rfl rfl b c h w) ?_
    exact piece_apply _ _ _ _ _ rfl (by decide) b c h w

/-- THE STACK at `(k, b, c, h, w)` is the padded array at neighbour `k` of the pixel. -/
theorem stack_apply (k : Fin 25) (b : Fin 16) (c : Fin 3) (h w : Fin 256) :
    val_main_v53 (F := Ideal) x1 (ix5 k b c h w) = val_main_v0 (F := Ideal) x1 (nbr (n := 16) k b c h w) := by
  unfold val_main_v53
  by_cases hk : k.val < 16
  · refine Eq.trans (concatenate_pair_apply_left (t := S25x16x3x256x256) (s₁ := S16x16x3x256x256) (s₂ := S9x16x3x256x256) 0
      (val_main_v51 (F := Ideal) x1) (val_main_v52 (F := Ideal) x1) _ (ix5 k b c h w) rfl
      (ix5 (⟨k.val, hk⟩ : Fin 16) b c h w) ?_) (lo_apply x1 ⟨k.val, hk⟩ b c h w)
    intro a
    match a with
    | ⟨0, _⟩ => rfl
    | ⟨1, _⟩ => rfl
    | ⟨2, _⟩ => rfl
    | ⟨3, _⟩ => rfl
    | ⟨4, _⟩ => rfl
  · have hk9 : k.val - 16 < 9 := by have := k.isLt; omega
    refine Eq.trans (concatenate_pair_apply_right (t := S25x16x3x256x256) (s₁ := S16x16x3x256x256) (s₂ := S9x16x3x256x256) 0
      (val_main_v51 (F := Ideal) x1) (val_main_v52 (F := Ideal) x1) _ (ix5 k b c h w) rfl rfl
      (ix5 (⟨k.val - 16, hk9⟩ : Fin 9) b c h w) ?_ ?_) ?_
    · intro a ha
      match a with
      | ⟨0, _⟩ => exact absurd rfl ha
      | ⟨1, _⟩ => rfl
      | ⟨2, _⟩ => rfl
      | ⟨3, _⟩ => rfl
      | ⟨4, _⟩ => rfl
    · show k.val - 16 + 16 = k.val
      omega
    · refine (hi_apply x1 ⟨k.val - 16, hk9⟩ b c h w).trans ?_
      refine congrArg (fun q : Fin 25 => val_main_v0 (F := Ideal) x1 (nbr (n := 16) q b c h w)) (Fin.ext ?_)
      show 16 + (k.val - 16) = k.val
      omega

/-- The layer sums: entry `(k, b, h, w)` of the channel sum is the cost of neighbour `k`. -/
theorem sums_apply (k : Fin 25) (b : Fin 16) (h w : Fin 256) :
    val_main_v58 (F := Ideal) x0 x1 (ix4 k b h w) = cost (n := 16) (val_main_v0 (F := Ideal) x1) x0 k b h w := by
  rw [val_main_v58_apply]
  have hz : val_main_cst_0 (F := Ideal) (Shape.Idx.first h_S_) = 0 := Ideal.ofBits_zero_f32
  rw [hz, zero_add]
  unfold cost
  refine Finset.sum_congr rfl fun c _ => ?_
  have hi : idx_main_v58 (ix4 k b h w) c = ix5 k b c h w := by
    funext a; apply Fin.ext
    match a with
    | ⟨0, _⟩ => rfl
    | ⟨1, _⟩ => rfl
    | ⟨2, _⟩ => rfl
    | ⟨3, _⟩ => rfl
    | ⟨4, _⟩ => rfl
  have hq : idx_main_v54 (idx_main_v55 (ix5 k b c h w)) = ix4 b c h w := by
    funext a; apply Fin.ext
    match a with
    | ⟨0, _⟩ => rfl
    | ⟨1, _⟩ => rfl
    | ⟨2, _⟩ => rfl
    | ⟨3, _⟩ => rfl
  rw [hi, val_main_v57_apply, val_main_v56_apply, val_main_v55_apply, val_main_v54_apply, hq, stack_apply]
  rfl

/-- THE REFERENCE'S MINIMUM MAP is the nearest-neighbour map. -/
theorem min_map : val_main_v59 (F := Ideal) x0 x1 = nearest (n := 16) (val_main_v0 (F := Ideal) x1) x0 := by
  funext y
  obtain ⟨b, h, w, rfl⟩ : ∃ (b : Fin 16) (h w : Fin 256), y = ix3 b h w := ⟨y 0, y 1, y 2, eq_ix3 y⟩
  have hred : S25x16x256x256.Reduces [0] S16x256x256 := by decide
  unfold val_main_v59
  rw [Host.reduce_eq_fold_single FloatOps.minimumf _ _ reducesTo_S25x16x256x256_S16x256x256_d0 hred h_S_ (ix3 b h w),
    nearest_ix3]
  unfold leastAt
  have htop : val_main_cst_1 (F := Ideal) (Shape.Idx.first h_S_) = ⊤ := by
    show Ideal.ofBits .f32 0x7F800000#32 = ⊤
    simp [Ideal.ofBits, Ideal.ieee]
  rw [htop]
  refine Finset.fold_congr fun k _ => ?_
  have hl : hred.lift (ix3 b h w) k = ix4 (⟨k.val, k.isLt⟩ : Fin 25) b h w := by
    funext a; apply Fin.ext
    match a with
    | ⟨0, _⟩ => rfl
    | ⟨1, _⟩ => rfl
    | ⟨2, _⟩ => rfl
    | ⟨3, _⟩ => rfl
  show val_main_v58 (F := Ideal) x0 x1 (hred.lift (ix3 b h w) k) = _
  rw [hl]
  exact sums_apply x0 x1 ⟨k.val, k.isLt⟩ b h w

end Cert.ReferenceIdeal.Stack

end
-- ==== Proof.lean ====
/-
  The proof of `Cert.Claim` (proofs.«181812_j48756468744869_1_alg».proof.Defs).

  Both programs compute `∑ over (b, h, w) of min over the 5 × 5 window of ∑ over c of |pad(gt)(b, c, h + i, w + j) − pred(b, c, h, w)|`:
  the nearest-neighbour map (Proof/Nearest.lean) of the second argument, padded by two pixels with the same constant
  in both programs, and the first argument, summed over all pixels by the same last line.
  The kernel keeps a running minimum over the window, block of four images by block (Proof/KernelBody.lean: one block;
  Proof/KernelWhole.lean: the four blocks tile the output, and the run with its result named); the reference stacks
  the 25 shifted slices and reduces with `min` from `+∞` (Proof/RefNearest.lean, over the reference's run read back in
  Proof/RefRun.lean and Proof/RefRead.lean). The two spellings of the minimum agree on the extended reals because
  `min` is associative and commutative with unit `+∞`; nothing else is rearranged, so the precondition is not used.
  The ideal pass rewrote nothing, so `preserves` is `True`; the kernels' frames are the generated ones and the
  reference's frame is its run with the result dropped.
-/
import proofs.«181812_j48756468744869_1_alg».proof.Defs
import proofs.«181812_j48756468744869_1_alg».proof.Proof.Gen.Kernel
import proofs.«181812_j48756468744869_1_alg».proof.Proof.Gen.Kernel.Frame
import proofs.«181812_j48756468744869_1_alg».proof.Proof.Gen.KernelIdeal
import proofs.«181812_j48756468744869_1_alg».proof.Proof.Gen.KernelIdeal.Frame
import proofs.«181812_j48756468744869_1_alg».proof.Proof.Gen.ReferenceIdeal
import proofs.«181812_j48756468744869_1_alg».proof.Proof.Gen.Pre_finite_inputs
import proofs.«181812_j48756468744869_1_alg».proof.Proof.RefRun
import proofs.«181812_j48756468744869_1_alg».proof.Proof.RefRead
import proofs.«181812_j48756468744869_1_alg».proof.Proof.Nearest
import proofs.«181812_j48756468744869_1_alg».proof.Proof.KernelBody
import proofs.«181812_j48756468744869_1_alg».proof.Proof.KernelWhole
import proofs.«181812_j48756468744869_1_alg».proof.Proof.RefNearest
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the same sum of the same nearest-neighbour map: its minimum map is the map
    (`Stack.min_map`), its padded array is the kernel's and its last line is the kernel's. -/
theorem reference_result (x0 x1 : Cert.ReferenceIdeal.S16x3x256x256.Idx → Elt Ideal .f32) :
    Cert.ReferenceIdeal.Read.val_main_v60 (F := Ideal) x0 x1
      = Cert.KernelIdeal.Whole.total (Cert.Nearest.nearest (n := 16) (Cert.KernelIdeal.Whole.padded x1) x0) := by
  unfold Cert.ReferenceIdeal.Read.val_main_v60
  rw [Cert.ReferenceIdeal.Stack.min_map]
  rfl

/-- At `Ideal`, from memories agreeing on the arguments, both programs end with the sum over all pixels of the
    nearest-neighbour map of the padded second argument and the first argument. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2]
  exact reference_result _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
